-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S400 : Shape := ⟨1, ![400]⟩
abbrev S400x1 : Shape := ⟨2, ![400, 1]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x16, .f32⟩
  | .local _ .vmem, ⟨4, _⟩ => ⟨S1x16, .f32⟩
  | .local _ .vmem, ⟨5, _⟩ => ⟨S400x16, .f32⟩
  | .local _ .vmem, ⟨6, _⟩ => ⟨S400x16, .f32⟩
  | .local _ .vmem, ⟨7, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  h_S400x16 : 0 < S400x16.numel
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000x1, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S10000x1, .f32⟩
  | .hbm, ⟨25, _⟩ => ⟨S10000x16, .f32⟩
  | .hbm, ⟨26, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_call1_cst_0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_cst_1 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_v6 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.LogSoftmaxLaw.lean ====
/-
  The one law that joins the two sides: for real h and m and any extended real L,
  h - (m + L) = (h - m) - L.
-/
import Mathlib.Data.EReal.Operations

namespace Cert.GcnLaw

/-- Subtracting a sum whose first summand is real: for real `h`, `m` and any extended real `L`,
    `h - (m + L) = (h - m) - L`. -/
theorem sub_add_real (h m : ℝ) (L : EReal) : (h : EReal) - ((m : EReal) + L) = ((h : EReal) - (m : EReal)) - L := by
  induction L using EReal.rec with
  | bot => simp [← EReal.coe_sub]
  | top => simp [← EReal.coe_sub]
  | coe l => norm_cast; ring

end Cert.GcnLaw
-- ==== Proof.GcnSpec.lean ====
/-
  One graph-convolution layer followed by a row-wise log-softmax, index by index over the extended reals.

  For features x [10000, 128], adjacency adj [10000, 10000], weights W [128, 16] and bias b [16]:
    proj k j  = Σ_f x[k, f] · W[f, j]
    act r q   = max (Σ_k adj[r, k] · proj k q + b[q]) 0
    top r     = the maximum of act r · over the 16 classes
  and the result at (r, q) is written in two ways,
    act r q − (top r + log Σ_q' exp (act r q' − top r))        (the maximum added back to the logarithm first)
    (act r q − top r) − log Σ_q' exp (act r q' − top r)        (the shifted entry minus the logarithm).
  The two agree whenever act r q and top r are real numbers, whatever the logarithm is; and they are real as soon as
  every input entry is, since sums, products and maxima of reals are real.
-/
import Idealize.ShloMosaic.Lib.ValueIdx
import Idealize.ShloMosaic.PureOps.Ideal
import Idealize.ShloMosaic.PureOps.Ideal.Laws
import proofs.«129348_g41807211659408_cont_sun_c4_862_25_alg».proof.Proof.LogSoftmaxLaw

noncomputable section

namespace Cert.Gcn

open Idealize.ShloMosaic Idealize.ShloMosaic.ValueIdx

/-! ## Real entries -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  obtain ⟨r, rfl⟩ := ha; obtain ⟨s, rfl⟩ := hb; exact ⟨Max.max r s, (EReal.coe_strictMono.monotone.map_max (a := r) (b := s)).symm⟩

theorem IsReal.zero : IsReal (Ideal.ofBits .f32 0x00000000#32) := ⟨0, by rw [Ideal.ofBits_zero_f32]; rfl⟩

/-- A finite sum of reals is real. -/
theorem IsReal.sum {ι : Type} [Fintype ι] (f : ι → EReal) (hf : ∀ i, IsReal (f i)) : IsReal (∑ i, f i) := by
  classical
  have key : ∀ s : Finset ι, IsReal (∑ i ∈ s, f i) := fun s => by
    induction s using Finset.induction_on with
    | empty => exact ⟨0, by simp⟩
    | insert a s ha ih => rw [Finset.sum_insert ha]; exact (hf a).add ih
  exact key Finset.univ

/-! ## The layer -/

/-- The projected features: row k of x against column j of W. -/
def proj (x : (⟨2, ![10000, 128]⟩ : Shape).Idx → EReal) (W : (⟨2, ![128, 16]⟩ : Shape).Idx → EReal) (k : Fin 10000) (j : Fin 16) :
    EReal := ∑ f : Fin 128, x (ix2 k f) * W (ix2 f j)

/-- The activation: row r of adj against column q of the projection, plus the bias, clamped below at zero. -/
def act (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) (r : Fin 10000) (q : Fin 16) : EReal :=
  max ((∑ k : Fin 10000, adj (ix2 r k) * proj x W k q) + b (ix1 q)) (Ideal.ofBits .f32 0x00000000#32)

theorem proj_real {x : (⟨2, ![10000, 128]⟩ : Shape).Idx → EReal} {W : (⟨2, ![128, 16]⟩ : Shape).Idx → EReal}
    (hx : ∀ i, IsReal (x i)) (hW : ∀ i, IsReal (W i)) (k : Fin 10000) (j : Fin 16) : IsReal (proj x W k j) :=
  IsReal.sum _ fun f => (hx _).mul (hW _)

theorem act_real {x : (⟨2, ![10000, 128]⟩ : Shape).Idx → EReal} {adj : (⟨2, ![10000, 10000]⟩ : Shape).Idx → EReal}
    {W : (⟨2, ![128, 16]⟩ : Shape).Idx → EReal} {b : (⟨1, ![16]⟩ : Shape).Idx → EReal}
    (hx : ∀ i, IsReal (x i)) (hadj : ∀ i, IsReal (adj i)) (hW : ∀ i, IsReal (W i)) (hb : ∀ i, IsReal (b i))
    (r : Fin 10000) (q : Fin 16) : IsReal (act x adj W b r q) :=
  ((IsReal.sum _ fun k => (hadj _).mul (proj_real hx hW k q)).add (hb _)).max IsReal.zero

/-! ## The row-wise log-softmax, in its two forms -/

/-- The maximum of a row of 16 entries, folded from -∞. -/
def rowTop (h : Fin 16 → EReal) : EReal := (Finset.univ : Finset (Fin 16)).fold max (Ideal.ofBits .f32 0xFF800000#32) h

/-- The logarithm of the sum of the row's exponentials, each entry shifted down by the row's maximum. -/
def rowLog (h : Fin 16 → EReal) : EReal := Ideal.log (∑ q : Fin 16, Ideal.exp (h q - rowTop h))

/-- The entry minus (the maximum plus the logarithm). -/
def lsmAddBack (h : Fin 16 → EReal) (q : Fin 16) : EReal := h q - (rowTop h + rowLog h)

/-- The shifted entry minus the logarithm. -/
def lsmShifted (h : Fin 16 → EReal) (q : Fin 16) : EReal := (h q - rowTop h) - rowLog h

theorem negInf_eq_bot : Ideal.ofBits .f32 0xFF800000#32 = (⊥ : EReal) := by
  simp [Ideal.ofBits, Ideal.ieee]

/-- The maximum of a row of reals is real: it is below +∞ because every entry is, and above -∞ because it bounds
    the first entry. -/
theorem rowTop_real {h : Fin 16 → EReal} (hh : ∀ q, IsReal (h q)) : IsReal (rowTop h) := by
  have hlt : rowTop h < ⊤ := by
    unfold rowTop
    rw [Finset.fold_max_lt]
    refine ⟨by rw [negInf_eq_bot]; exact bot_lt_top, fun q _ => ?_⟩
    obtain ⟨r, hr⟩ := hh q
    rw [hr]; exact EReal.coe_lt_top r
  have hgt : ⊥ < rowTop h := by
    obtain ⟨r, hr⟩ := hh 0
    have : h 0 ≤ rowTop h := by
      unfold rowTop
      rw [Finset.le_fold_max]
      exact Or.inr ⟨0, Finset.mem_univ _, le_refl _⟩
    exact lt_of_lt_of_le (by rw [hr]; exact EReal.bot_lt_coe r) this
  refine ⟨(rowTop h).toReal, (EReal.coe_toReal (ne_of_lt hlt) (ne_of_gt hgt)).symm⟩

/-- On a row of reals the two forms agree. -/
theorem lsm_forms_agree {h : Fin 16 → EReal} (hh : ∀ q, IsReal (h q)) (q : Fin 16) : lsmAddBack h q = lsmShifted h q := by
  obtain ⟨r, hr⟩ := hh q
  obtain ⟨t, ht⟩ := rowTop_real hh
  unfold lsmAddBack lsmShifted
  rw [hr, ht]
  exact Cert.GcnLaw.sub_add_real r t _

/-! ## The result array, in its two forms -/

/-- The layer's result with the maximum added back to the logarithm before the subtraction. -/
def outAddBack (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) :
    (⟨2, ![10000, 16]⟩ : Shape).Idx → EReal := fun i => lsmAddBack (act x adj W b (i 0)) (i 1)

/-- The layer's result as the shifted entry minus the logarithm. -/
def outShifted (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) :
    (⟨2, ![10000, 16]⟩ : Shape).Idx → EReal := fun i => lsmShifted (act x adj W b (i 0)) (i 1)

/-- On real inputs the two result arrays are one. -/
theorem out_forms_agree {x : (⟨2, ![10000, 128]⟩ : Shape).Idx → EReal} {adj : (⟨2, ![10000, 10000]⟩ : Shape).Idx → EReal}
    {W : (⟨2, ![128, 16]⟩ : Shape).Idx → EReal} {b : (⟨1, ![16]⟩ : Shape).Idx → EReal}
    (hx : ∀ i, IsReal (x i)) (hadj : ∀ i, IsReal (adj i)) (hW : ∀ i, IsReal (W i)) (hb : ∀ i, IsReal (b i)) :
    outAddBack x adj W b = outShifted x adj W b :=
  funext fun i => lsm_forms_agree (fun q => act_real hx hadj hW hb (i 0) q) (i 1)

end Cert.Gcn

end
-- ==== Proof.LibRowMax.lean ====
/-
  A row's maximum over the extended reals, on both sides of a softmax.

  A kernel takes the maximum of each row of an [a, b] array lane-wise (a multi-reduction with a maximum body over the
  last axis, from -∞); a host program takes it by a reduce with a maximum body over the last axis of an [n0, n1, n2]
  array, from its initial value, and jnp then takes the maximum with -∞ once more.  Over the extended reals `max` is
  commutative and associative, so each is the fold of `max` over the row's entries in any order, and -∞ is its identity.
-/
import Idealize.ShloMosaic.Lib.ValueIdx
import Idealize.ShloMosaic.PureOps.Reduce
import Idealize.ShloMosaic.PureOps.Ideal.Laws

namespace Cert.RowMax

open Idealize.ShloMosaic Idealize.ShloMosaic.ValueIdx

/-- -∞ (the f32 pattern 0xFF800000) is below every extended real: the maximum with it changes nothing. -/
theorem max_negInf (a : EReal) : max (Ideal.ofBits .f32 0xFF800000#32) a = a := by
  simp [Ideal.ofBits, Ideal.ieee]

/-- Over the extended reals, the maximum over the last axis of an [a, b] array, read at row r, is the fold of `max`
    from the accumulator's value over the row's b entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have hf : (src ∘ h.lift (ix1 r)) = fun k : Fin b => src (ix2 r k) := funext fun (k : Fin b) => congrArg src (by
    funext c
    apply Fin.ext
    match c with
    | ⟨0, _⟩ => rfl
    | ⟨1, _⟩ => rfl)
  exact congrArg (fun f => Finset.fold max (Ideal.ofBits φ acc) f (Finset.univ : Finset (Fin b))) hf

/-- Over the extended reals, the host's reduce with a maximum body over the last axis of an [n0, n1, n2] array, read at
    (p, q), is the fold of `max` from the initial value over the n2 entries at (p, q, ·). -/
theorem hostRowMax_apply {n0 n1 n2 : ℕ} {φ : FTy} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  have hf : (x ∘ h.lift (ix2 p q)) = fun k : Fin n2 => x (ix3 p q k) := funext fun (k : Fin n2) => congrArg x (by
    funext c
    apply Fin.ext
    match c with
    | ⟨0, _⟩ => rfl
    | ⟨1, _⟩ => rfl
    | ⟨2, _⟩ => rfl)
  exact congrArg (fun f => Finset.fold max (init (Shape.Idx.first hu)) f (Finset.univ : Finset (Fin n2))) hf

end Cert.RowMax
-- ==== Proof.LibRowStat.lean ====
/-
  A per-row statistic of an [n0, n1] array, on the host and as a column.

  A host program takes the maximum of each row of a rank-2 array by a reduce with a maximum body over axis 1, from its
  initial value: over the extended reals that is the fold of `max` over the row's entries.  A kernel keeps such a
  statistic, a vector of n0 entries, as an [n0, 1] column; read at (p, 0) the column is the vector's entry p.
-/
import Idealize.ShloMosaic.Lib.Pipeline.Value
import Idealize.ShloMosaic.Lib.ValueIdx
import Idealize.ShloMosaic.PureOps.Reduce
import Idealize.ShloMosaic.PureOps.Ideal.Laws

namespace Cert.RowStat

open Idealize.ShloMosaic Idealize.ShloMosaic.ValueIdx

/-- A vector of a entries set up as an [a, 1] column, read at (p, 0): the vector's entry p. -/
theorem column_cast_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- Over the extended reals, the host's reduce with a maximum body over the last axis of an [n0, n1] array, read at
    row p, is the fold of `max` from the initial value over the n1 entries of that row. -/
theorem hostRowMax2_apply {n0 n1 : ℕ} {φ : FTy} {u : Shape} (x : FVec Ideal ⟨2, ![n0, n1]⟩ φ) (init : u.Idx → Ideal φ)
    (h' : (⟨2, ![n0, n1]⟩ : Shape).ReducesTo [1] ⟨1, ![n0]⟩)
    (h : (⟨2, ![n0, n1]⟩ : Shape).Reduces [1] ⟨1, ![n0]⟩) (hu : 0 < u.numel) (p : Fin n0) :
    Host.reduce FloatOps.maximumf x init h' hu (ix1 p)
      = (Finset.univ : Finset (Fin n1)).fold max (init (Shape.Idx.first hu)) (fun k => x (ix2 p k)) := by
  refine (Host.reduce_eq_fold_single FloatOps.maximumf x init h' h hu (ix1 p)).trans ?_
  have hf : (x ∘ h.lift (ix1 p)) = fun k : Fin n1 => x (ix2 p k) := funext fun (k : Fin n1) => congrArg x (by
    funext c
    apply Fin.ext
    match c with
    | ⟨0, _⟩ => rfl
    | ⟨1, _⟩ => rfl)
  exact congrArg (fun f => Finset.fold max (init (Shape.Idx.first hu)) f (Finset.univ : Finset (Fin n1))) hf

end Cert.RowStat
-- ==== Proof.RefIsSpec.lean ====
/-
  The reference program's result, read index by index, is the specification's "shifted entry minus the logarithm" form.

  Stage by stage: the two contractions and the bias give the pre-activation, the maximum with zero gives the
  activation act r q; the maximum over a row of 16 activations (a fold of max from -∞, then one more maximum with -∞,
  which changes nothing) gives top r; the shifted entry is act r q − top r; the sum over the row of the exponentials of
  the shifted entries, started from zero, and its logarithm give the row's logarithm; the result is their difference.
-/
import proofs.«129348_g41807211659408_cont_sun_c4_862_25_alg».proof.Proof.RefRead
import proofs.«129348_g41807211659408_cont_sun_c4_862_25_alg».proof.Proof.GcnSpec
import proofs.«129348_g41807211659408_cont_sun_c4_862_25_alg».proof.Proof.LibRowMax
import proofs.«129348_g41807211659408_cont_sun_c4_862_25_alg».proof.Proof.LibRowStat
import Idealize.ShloMosaic.Lib.ValueIdx
import Idealize.ShloMosaic.PureOps.Reduce
import Idealize.ShloMosaic.PureOps.Ideal
import Idealize.ShloMosaic.PureOps.Ideal.Laws

noncomputable section

namespace Cert.ReferenceIdeal.RefSpec

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx

/-! ## The composed index functions are coordinate constructors -/

theorem lidx_v0_eq (k : Fin 10000) (q : Fin 16) (f : Fin 128) : lidx_main_v0 (ix2 k q) f = ix2 k f :=
  funext fun a => Fin.ext (by match a with | ⟨0, _⟩ => rfl | ⟨1, _⟩ => rfl)
theorem ridx_v0_eq (k : Fin 10000) (q : Fin 16) (f : Fin 128) : ridx_main_v0 (ix2 k q) f = ix2 f q :=
  funext fun a => Fin.ext (by match a with | ⟨0, _⟩ => rfl | ⟨1, _⟩ => rfl)
theorem lidx_v1_eq (r : Fin 10000) (q : Fin 16) (k : Fin 10000) : lidx_main_v1 (ix2 r q) k = ix2 r k :=
  funext fun a => Fin.ext (by match a with | ⟨0, _⟩ => rfl | ⟨1, _⟩ => rfl)
theorem ridx_v1_eq (r : Fin 10000) (q : Fin 16) (k : Fin 10000) : ridx_main_v1 (ix2 r q) k = ix2 k q :=
  funext fun a => Fin.ext (by match a with | ⟨0, _⟩ => rfl | ⟨1, _⟩ => rfl)
theorem idx_bias_eq (r : Fin 10000) (q : Fin 16) : idx_main_v2 (idx_main_v3 (ix2 r q)) = ix1 q :=
  funext fun a => Fin.ext (by match a with | ⟨0, _⟩ => rfl)
theorem idx_top_eq (r : Fin 10000) (q : Fin 16) : idx_main_call1_v3 (idx_main_call1_v4 (ix2 r q)) = ix1 r :=
  funext fun a => Fin.ext (by match a with | ⟨0, _⟩ => rfl)
theorem idx_log_eq (r : Fin 10000) (q : Fin 16) : idx_main_call1_v8 (idx_main_call1_v10 (ix2 r q)) = ix1 r :=
  funext fun a => Fin.ext (by match a with | ⟨0, _⟩ => rfl)
theorem idx_sum_eq (r : Fin 10000) (k : Fin 16) : idx_main_call1_v7 (ix1 r) k = ix2 r k :=
  funext fun a => Fin.ext (by match a with | ⟨0, _⟩ => rfl | ⟨1, _⟩ => rfl)

variable (x0 : (⟨S10000x128, .f32⟩ : BufTy).Contents (Elt Ideal)) (x1 : (⟨S10000x10000, .f32⟩ : BufTy).Contents (Elt Ideal))
  (x2 : (⟨S128x16, .f32⟩ : BufTy).Contents (Elt Ideal)) (x3 : (⟨S16, .f32⟩ : BufTy).Contents (Elt Ideal))

/-! ## The stages -/

/-- The first contraction at (k, q) is the projected feature. -/
theorem proj_eq (k : Fin 10000) (q : Fin 16) : val_main_v0 (F := Ideal) x0 x2 (ix2 k q) = Cert.Gcn.proj x0 x2 k q := by
  rw [val_main_v0_apply]
  unfold Cert.Gcn.proj
  refine Finset.sum_congr rfl fun f _ => ?_
  rw [lidx_v0_eq, ridx_v0_eq]

/-- (1) The clamped stage at (r, q) is the activation. -/
theorem act_eq (r : Fin 10000) (q : Fin 16) :
    val_main_v5 (F := Ideal) x0 x1 x2 x3 (ix2 r q) = Cert.Gcn.act x0 x1 x2 x3 r q := by
  rw [val_main_v5_apply, val_main_v4_apply, val_main_v1_apply, val_main_v3_apply, val_main_v2_apply, val_main_call0_v0_apply,
    val_main_call0_cst_apply, idx_bias_eq]
  simp only [Ideal.addf_def, Ideal.maximumf_def, Ideal.ofBits_def]
  unfold Cert.Gcn.act
  have hs : (∑ k : Fin 10000, x1 (lidx_main_v1 (ix2 r q) k) * val_main_v0 (F := Ideal) x0 x2 (ridx_main_v1 (ix2 r q) k))
      = ∑ k : Fin 10000, x1 (ix2 r k) * Cert.Gcn.proj x0 x2 k q :=
    Finset.sum_congr rfl fun k _ => by rw [lidx_v1_eq, ridx_v1_eq, proj_eq]
  rw [hs]

/-- (2) The row maximum stage at r is the fold of max from -∞ over the row's activations. -/
theorem top_eq (r : Fin 10000) :
    val_main_call1_v2 (F := Ideal) x0 x1 x2 x3 (ix1 r) = Cert.Gcn.rowTop (fun q => Cert.Gcn.act x0 x1 x2 x3 r q) := by
  rw [val_main_call1_v2_apply, val_main_call1_v1_apply, val_main_call1_cst_0_apply]
  unfold val_main_call1_v0
  rw [Cert.RowStat.hostRowMax2_apply (val_main_v5 (F := Ideal) x0 x1 x2 x3) (val_main_call1_cst (F := Ideal)) reducesTo_S10000x16_S10000_d1
    (by decide) h_S_ r, val_main_call1_cst_apply]
  simp only [Ideal.maximumf_def, Ideal.ofBits_def]
  rw [Cert.RowMax.max_negInf]
  unfold Cert.Gcn.rowTop
  exact congrArg (fun f => Finset.fold max (Ideal.ofBits .f32 0xFF800000#32) f (Finset.univ : Finset (Fin 16)))
    (funext fun q => act_eq x0 x1 x2 x3 r q)

/-- (3) The shifted stage at (r, q) is the activation minus the row's maximum. -/
theorem shifted_eq (r : Fin 10000) (q : Fin 16) :
    val_main_call1_v5 (F := Ideal) x0 x1 x2 x3 (ix2 r q)
      = Cert.Gcn.act x0 x1 x2 x3 r q - Cert.Gcn.rowTop (fun q' => Cert.Gcn.act x0 x1 x2 x3 r q') := by
  rw [val_main_call1_v5_apply, val_main_call1_v4_apply, val_main_call1_v3_apply, idx_top_eq, top_eq, act_eq]
  simp only [Ideal.subf_def]

/-- (4) The logarithm stage at (r, q) is the logarithm of the row's sum of exponentials of shifted entries. -/
theorem log_eq (r : Fin 10000) (q : Fin 16) :
    val_main_call1_v10 (F := Ideal) x0 x1 x2 x3 (ix2 r q) = Cert.Gcn.rowLog (fun q' => Cert.Gcn.act x0 x1 x2 x3 r q') := by
  rw [val_main_call1_v10_apply, val_main_call1_v9_apply, val_main_call1_v8_apply, idx_log_eq, val_main_call1_v7_apply,
    val_main_call1_cst_1_apply]
  simp only [Ideal.hostUnary_log_def, Ideal.ofBits_def, Ideal.ofBits_zero_f32, zero_add]
  unfold Cert.Gcn.rowLog
  refine congrArg Ideal.log (Finset.sum_congr rfl fun k _ => ?_)
  rw [idx_sum_eq, val_main_call1_v6_apply, shifted_eq]
  simp only [Ideal.hostUnary_exp_def]

/-- (5) The reference's result is the specification's shifted form. -/
theorem ref_is_shifted :
    Cert.ReferenceIdeal.ReadP.val_main_v6 (F := Ideal) x0 x1 x2 x3 = Cert.Gcn.outShifted x0 x1 x2 x3 := by
  funext i
  obtain ⟨r, q, rfl⟩ : ∃ (r : Fin 10000) (q : Fin 16), i = ix2 r q := ⟨i 0, i 1, eq_ix2 i⟩
  rw [val_main_v6_apply, shifted_eq, log_eq]
  simp only [Ideal.subf_def]
  rfl

end Cert.ReferenceIdeal.RefSpec

end
-- ==== Proof.CasePieces.lean ====
/-
  What each of the two control cases of the kernel body leaves behind, as values.

  At the grid's first point the body stores the projection `x · W` into the carried scratch, reads it back, and
  stores the output block computed from the adjacency block, that projection and the bias.  At every later point it
  stores nothing into the scratch and computes the output block from the scratch as the point before left it.
  Every load and store goes through a whole buffer, so a buffer read after a store holds that store's payload.
-/
import proofs.«129348_g41807211659408_cont_sun_c4_862_25_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the scratch ends holding the projection of the feature block by the weight block. -/
theorem scratch_first (c : Dev nD) (i : grid0.Coords) (a1 : Memref sig .tc .vmem S10000x128 .f32) (h1 : a1.IsWhole)
    (a2 : Memref sig .tc .vmem S400x10000 .f32) (h2 : a2.IsWhole) (a3 : Memref sig .tc .vmem S128x16 .f32) (h3 : a3.IsWhole)
    (a4 : Memref sig .tc .vmem S1x16 .f32) (h4 : a4.IsWhole) (a5 : Memref sig .tc .vmem S400x16 .f32) (h5 : a5.IsWhole)
    (a6 : Memref sig .tc .vmem S10000x16 .f32) (h6 : a6.IsWhole) (hc : cond0_0 i)
    (x0 : Vec F S10000x128 .f32) (x1 : Vec F S400x10000 .f32) (x2 : Vec F S128x16 .f32) (x3 : Vec F S1x16 .f32) :
    sout0_A_0 c i a1 h1 a2 h2 a3 h3 a4 h4 a5 h5 a6 h6 hc x0 x1 x2 x3 = k0_pay1 x0 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h3.read_unread, View.ld_unit_zero (S := S10000x128) hz,
    View.ld_unit_zero (S := S128x16) hz]

/-- First point: the output block is the body's arithmetic on the adjacency block, the projection just stored, and
    the bias. -/
theorem out_first (c : Dev nD) (i : grid0.Coords) (a1 : Memref sig .tc .vmem S10000x128 .f32) (h1 : a1.IsWhole)
    (a2 : Memref sig .tc .vmem S400x10000 .f32) (h2 : a2.IsWhole) (a3 : Memref sig .tc .vmem S128x16 .f32) (h3 : a3.IsWhole)
    (a4 : Memref sig .tc .vmem S1x16 .f32) (h4 : a4.IsWhole) (a5 : Memref sig .tc .vmem S400x16 .f32) (h5 : a5.IsWhole)
    (a6 : Memref sig .tc .vmem S10000x16 .f32) (h6 : a6.IsWhole) (hc : cond0_0 i)
    (x0 : Vec F S10000x128 .f32) (x1 : Vec F S400x10000 .f32) (x2 : Vec F S128x16 .f32) (x3 : Vec F S1x16 .f32) :
    out0_A_4 c i a1 h1 a2 h2 a3 h3 a4 h4 a5 h5 a6 h6 hc x0 x1 x2 x3 = k0_pay2 x1 (k0_pay1 x0 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz, View.readCov_unit_zero (S := S10000x16) _ hz]
  simp only [View.readAt_eq_ld, h1.read_unread, h2.read_unread, h3.read_unread, h4.read_unread,
    View.ld_unit_zero (S := S10000x128) hz, View.ld_unit_zero (S := S128x16) hz,
    View.ld_unit_zero (S := S400x10000) hz, View.ld_unit_zero (S := S1x16) hz]

/-- Later points: the output block is the body's arithmetic on the adjacency block, the scratch as the point before
    left it, and the bias. -/
theorem out_later (c : Dev nD) (i : grid0.Coords) (a1 : Memref sig .tc .vmem S10000x128 .f32) (h1 : a1.IsWhole)
    (a2 : Memref sig .tc .vmem S400x10000 .f32) (h2 : a2.IsWhole) (a3 : Memref sig .tc .vmem S128x16 .f32) (h3 : a3.IsWhole)
    (a4 : Memref sig .tc .vmem S1x16 .f32) (h4 : a4.IsWhole) (a5 : Memref sig .tc .vmem S400x16 .f32) (h5 : a5.IsWhole)
    (a6 : Memref sig .tc .vmem S10000x16 .f32) (h6 : a6.IsWhole) (hc : ¬cond0_0 i)
    (x0 : Vec F S10000x128 .f32) (x1 : Vec F S400x10000 .f32) (x2 : Vec F S128x16 .f32) (x3 : Vec F S1x16 .f32) (xs : Vec F S10000x16 .f32) :
    out0_B_4 c i a1 h1 a2 h2 a3 h3 a4 h4 a5 h5 a6 h6 hc x0 x1 x2 x3 xs = k0_pay2 x1 xs x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  rw [View.canon_unit_zero hz]
  simp only [View.readAt_eq_ld, h2.read_unread, h4.read_unread, h6.read_unread,
    View.ld_unit_zero (S := S400x10000) hz, View.ld_unit_zero (S := S1x16) hz, View.ld_unit_zero (S := S10000x16) hz]

end Cert.KernelIdeal.Pieces

end
-- ==== Proof.LibKeepdims.lean ====
/-
  A row statistic kept as a column, and a [1, 1, a, b] block seen as a matrix.

  A kernel that works on one [a, b] tile of a [1, 1, a, b] block drops the two leading unit axes on the way in and
  puts them back on the way out; a per-row statistic kept with a trailing unit axis ([a, 1]) is spread along the
  rows to [a, b] by a broadcast; and a sum over the last axis of an [a, b] array, read at row r, is the sum of that
  row's entries.  Each is read here at explicit coordinates.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An [a, 1] column spread along the rows to [a, b], read at (p, c): the column's entry p. -/
theorem column_broadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] block seen as an [a, b] matrix, read at (i, j): the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix put back as a [1, 1, a, b] block, read at (u, v, i, j): the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Over the extended reals, the sum over the last axis of an [a, b] array, read at row r, is the sum over the
    row's b entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  apply Fin.ext
  match c with
  | ⟨0, _⟩ => rfl
  | ⟨1, _⟩ => rfl

end Cert.Keepdims
-- ==== Proof.KernelPayload.lean ====
/-
  The kernel body's two stored values, read at an index over the extended reals.

  The value stored into the carried scratch is the product of the feature block by the weight block: entry (k, j) is
  Σ_f x[k, f] · W[f, j].  The value stored into the output block is, at row p and class q, the row-wise log-softmax
  (the maximum added back to the logarithm before the subtraction) of the activation row
    q' ↦ max (Σ_k adj[p, k] · s[k, q'] + b[0, q']) 0
  of the adjacency block adj, the scratch contents s and the bias row b.
-/
import proofs.«129348_g41807211659408_cont_sun_c4_862_25_alg».proof.Proof.Gen.KernelIdeal.Skeleton
import proofs.«129348_g41807211659408_cont_sun_c4_862_25_alg».proof.Proof.GcnSpec
import proofs.«129348_g41807211659408_cont_sun_c4_862_25_alg».proof.Proof.LibRowMax
import proofs.«129348_g41807211659408_cont_sun_c4_862_25_alg».proof.Proof.LibKeepdims
import proofs.«129348_g41807211659408_cont_sun_c4_862_25_alg».proof.Proof.LibRowStat
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The two contractions as plain sums -/

theorem lhs_proj_0 (i : S10000x16.Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_proj_1 (i : S10000x16.Idx) (q : dot_S10000x128_S128x16_S10000x16_1_0_0_1_n_n.contr.Idx) : (dot_S10000x128_S128x16_S10000x16_1_0_0_1_n_n.lhsIdx i q 1).val = (q ⟨0, by decide⟩).val :=
  dot_S10000x128_S128x16_S10000x16_1_0_0_1_n_n.lhsIdx_val_of_single rfl i q
theorem rhs_proj_0 (i : S10000x16.Idx) (q : dot_S10000x128_S128x16_S10000x16_1_0_0_1_n_n.contr.Idx) : (dot_S10000x128_S128x16_S10000x16_1_0_0_1_n_n.rhsIdx i q 0).val = (q ⟨0, by decide⟩).val :=
  dot_S10000x128_S128x16_S10000x16_1_0_0_1_n_n.rhsIdx_val_of_single rfl i q
theorem rhs_proj_1 (i : S10000x16.Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The feature block times the weight block, into a zero accumulator, at (k, j): the sum over the 128 features. -/
theorem matmul_proj_apply (l : FVec Ideal S10000x128 .f32) (r : FVec Ideal S128x16 .f32) (p : Fin 10000) (q : Fin 16) :
    matmul (F := Ideal) dot_S10000x128_S128x16_S10000x16_1_0_0_1_n_n none l r (constant S10000x16 .f32 0x00000000#32) (ix2 p q) = ∑ k : Fin 128, l (ix2 p k) * r (ix2 k q) := by
  show FloatOps.matmul (F := Ideal) dot_S10000x128_S128x16_S10000x16_1_0_0_1_n_n none l r (constant S10000x16 .f32 0x00000000#32) (ix2 p q) = _
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx (ix2 p q) ((ValueIdx.contrEquiv1 dot_S10000x128_S128x16_S10000x16_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S10000x128_S128x16_S10000x16_1_0_0_1_n_n.rhsIdx (ix2 p q) ((ValueIdx.contrEquiv1 dot_S10000x128_S128x16_S10000x16_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

theorem lhs_agg_0 (i : S400x16.Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_agg_1 (i : S400x16.Idx) (q : dot_S400x10000_S10000x16_S400x16_1_0_0_1_n_n.contr.Idx) : (dot_S400x10000_S10000x16_S400x16_1_0_0_1_n_n.lhsIdx i q 1).val = (q ⟨0, by decide⟩).val :=
  dot_S400x10000_S10000x16_S400x16_1_0_0_1_n_n.lhsIdx_val_of_single rfl i q
theorem rhs_agg_0 (i : S400x16.Idx) (q : dot_S400x10000_S10000x16_S400x16_1_0_0_1_n_n.contr.Idx) : (dot_S400x10000_S10000x16_S400x16_1_0_0_1_n_n.rhsIdx i q 0).val = (q ⟨0, by decide⟩).val :=
  dot_S400x10000_S10000x16_S400x16_1_0_0_1_n_n.rhsIdx_val_of_single rfl i q
theorem rhs_agg_1 (i : S400x16.Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The adjacency block times the scratch, into a zero accumulator, at (p, q): the sum over the 10000 nodes. -/
theorem matmul_agg_apply (l : FVec Ideal S400x10000 .f32) (r : FVec Ideal S10000x16 .f32) (p : Fin 400) (q : Fin 16) :
    matmul (F := Ideal) dot_S400x10000_S10000x16_S400x16_1_0_0_1_n_n none l r (constant S400x16 .f32 0x00000000#32) (ix2 p q) = ∑ k : Fin 10000, l (ix2 p k) * r (ix2 k q) := by
  show FloatOps.matmul (F := Ideal) dot_S400x10000_S10000x16_S400x16_1_0_0_1_n_n none l r (constant S400x16 .f32 0x00000000#32) (ix2 p q) = _
  rw [Ideal.matmul_constant_zero_apply, ← Equiv.sum_comp (ValueIdx.contrEquiv1 dot_S400x10000_S10000x16_S400x16_1_0_0_1_n_n 10000 rfl rfl).symm]
  refine Finset.sum_congr rfl fun k _ => ?_
  have hk := ValueIdx.contrEquiv1_symm_val dot_S400x10000_S10000x16_S400x16_1_0_0_1_n_n 10000 rfl rfl k
  have el : dot_S400x10000_S10000x16_S400x16_1_0_0_1_n_n.lhsIdx (ix2 p q) ((ValueIdx.contrEquiv1 dot_S400x10000_S10000x16_S400x16_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x16_S400x16_1_0_0_1_n_n.rhsIdx (ix2 p q) ((ValueIdx.contrEquiv1 dot_S400x10000_S10000x16_S400x16_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-! ## The scratch's value -/

/-- The stored projection at (k, j). -/
theorem pay1_apply (x0 : Vec Ideal S10000x128 .f32) (x2 : Vec Ideal S128x16 .f32) (k : Fin 10000) (j : Fin 16) :
    k0_pay1 (F := Ideal) x0 x2 (ix2 k j) = ∑ f : Fin 128, x0 (ix2 k f) * x2 (ix2 f j) := by
  unfold k0_pay1
  rw [shapeCast_self]
  exact matmul_proj_apply x0 x2 k j

/-! ## The output block's value -/

/-- The activation at (p, q): the aggregated scratch plus the bias row, clamped below at zero. -/
theorem act_apply (x1 : FVec Ideal S400x10000 .f32) (xs : FVec Ideal S10000x16 .f32) (x3 : FVec Ideal S1x16 .f32) (p : Fin 400) (q : Fin 16) :
    maximumf (addf (matmul (F := Ideal) dot_S400x10000_S10000x16_S400x16_1_0_0_1_n_n none x1 xs (constant S400x16 .f32 0x00000000#32))
        (broadcastTo S400x16 (shapeCast S1x16 x3 shapeCasts_S1x16_S1x16) broadcasts_S1x16_S400x16))
      (broadcast S400x16 (Scalar.ofBits (F := Ideal) .f32 0x00000000#32)) (ix2 p q)
    = max ((∑ k : Fin 10000, x1 (ix2 p k) * xs (ix2 k q)) + x3 (ix2 (0 : Fin 1) q)) (Ideal.ofBits .f32 0x00000000#32) := by
  show max (matmul (F := Ideal) dot_S400x10000_S10000x16_S400x16_1_0_0_1_n_n none x1 xs (constant S400x16 .f32 0x00000000#32) (ix2 p q)
      + broadcastTo S400x16 (shapeCast S1x16 x3 shapeCasts_S1x16_S1x16) broadcasts_S1x16_S400x16 (ix2 p q)) _ = _
  rw [matmul_agg_apply, shapeCast_self, broadcastTo_1b_ab_apply]
  rfl

/-- The row maximum kept as a column, at (p, 0): the maximum of row p. -/
theorem top_apply (h : FVec Ideal S400x16 .f32) (p : Fin 400) :
    shapeCast S400x1 (multiReduction .maximumf [1] S400 h 0xFF800000#32 reduces_S400x16_S400 (.inl rfl) rfl) shapeCasts_S400_S400x1
        (ix2 p (0 : Fin 1))
      = Cert.Gcn.rowTop (fun k => h (ix2 p k)) := by
  rw [Cert.RowStat.column_cast_apply]
  exact Cert.RowMax.rowMax_apply h _ _ _ _ p

/-- The log-softmax tail of the body applied to an activation block, at (p, q): the entry minus (the row's maximum plus
    the logarithm of the sum of the shifted exponentials). -/
theorem tail_apply (h : FVec Ideal S400x16 .f32) (p : Fin 400) (q : Fin 16) :
    subf h (broadcastTo S400x16
      (addf (shapeCast S400x1 (multiReduction .maximumf [1] S400 h 0xFF800000#32 reduces_S400x16_S400 (.inl rfl) rfl) shapeCasts_S400_S400x1)
        (log (shapeCast S400x1 (multiReduction .add [1] S400
          (exp (subf h (broadcastTo S400x16
            (shapeCast S400x1 (multiReduction .maximumf [1] S400 h 0xFF800000#32 reduces_S400x16_S400 (.inl rfl) rfl) shapeCasts_S400_S400x1)
            broadcasts_S400x1_S400x16)))
          0x00000000#32 reduces_S400x16_S400 (.inl rfl) rfl) shapeCasts_S400_S400x1)))
      broadcasts_S400x1_S400x16) (ix2 p q)
    = Cert.Gcn.lsmAddBack (fun k => h (ix2 p k)) q := by
  have hT := top_apply h p
  have hS : multiReduction .add [1] S400
        (exp (subf h (broadcastTo S400x16
          (shapeCast S400x1 (multiReduction .maximumf [1] S400 h 0xFF800000#32 reduces_S400x16_S400 (.inl rfl) rfl) shapeCasts_S400_S400x1)
          broadcasts_S400x1_S400x16)))
        0x00000000#32 reduces_S400x16_S400 (.inl rfl) rfl (ix1 p)
      = ∑ k : Fin 16, Ideal.exp (h (ix2 p k) - Cert.Gcn.rowTop (fun k => h (ix2 p k))) := by
    refine (Cert.Keepdims.rowSum_apply _ _ _ _ _ p).trans ?_
    refine Finset.sum_congr rfl fun k _ => ?_
    show Ideal.exp (h (ix2 p k) - broadcastTo S400x16 _ broadcasts_S400x1_S400x16 (ix2 p k)) = _
    rw [Cert.Keepdims.column_broadcast_apply, hT]
  show h (ix2 p q) - broadcastTo S400x16 _ broadcasts_S400x1_S400x16 (ix2 p q) = _
  rw [Cert.Keepdims.column_broadcast_apply]
  show h (ix2 p q) - (shapeCast S400x1 _ shapeCasts_S400_S400x1 (ix2 p (0 : Fin 1))
      + Ideal.log (shapeCast S400x1 _ shapeCasts_S400_S400x1 (ix2 p (0 : Fin 1)))) = _
  rw [hT, Cert.RowStat.column_cast_apply, hS]
  rfl

/-- The stored output value at (p, q). -/
theorem pay2_apply (x1 : Vec Ideal S400x10000 .f32) (xs : Vec Ideal S10000x16 .f32) (x3 : Vec Ideal S1x16 .f32) (p : Fin 400) (q : Fin 16) :
    k0_pay2 (F := Ideal) x1 xs x3 (ix2 p q)
      = Cert.Gcn.lsmAddBack (fun q' => max ((∑ k : Fin 10000, x1 (ix2 p k) * xs (ix2 k q')) + x3 (ix2 (0 : Fin 1) q'))
          (Ideal.ofBits .f32 0x00000000#32)) q := by
  unfold k0_pay2
  refine (tail_apply _ p q).trans ?_
  exact congrArg (fun h => Cert.Gcn.lsmAddBack h q) (funext fun q' => act_apply x1 xs x3 p q')

end Cert.KernelIdeal.Payload

end
-- ==== Proof.KernelBlocks.lean ====
/-
  From what each grid point writes back to the whole result array.

  The grid has 25 points; point t stages rows 400·t … 400·t + 399 of the adjacency matrix and writes back the same rows
  of the result.  The features, the weights and the bias row are staged whole at every point.  The carried scratch is
  stored once, at point 0, with the projection x · W, and no later point stores into it: by induction over the points it
  holds that projection after every point.  So the block point t writes back is the restriction to its rows of one
  function of the argument arrays — the layer's result with the row maximum added back to the logarithm — and the 25 row
  blocks cover the array.
-/
import proofs.«129348_g41807211659408_cont_sun_c4_862_25_alg».proof.Proof.Gen.KernelIdeal.Value
import proofs.«129348_g41807211659408_cont_sun_c4_862_25_alg».proof.Proof.CasePieces
import proofs.«129348_g41807211659408_cont_sun_c4_862_25_alg».proof.Proof.KernelPayload
import proofs.«129348_g41807211659408_cont_sun_c4_862_25_alg».proof.Proof.GcnSpec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hN : cfg0.N = 25 := N_0

theorem zero_lt_N : 0 < cfg0.N := by rw [hN]; decide

/-- The grid's first point. -/
abbrev t0 : Fin cfg0.N := ⟨0, zero_lt_N⟩

/-- Where each window's block sits at each point: the adjacency and result blocks move down one block of rows per point,
    everything else stays at the origin (decided over the 25 points). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The carried scratch holds the projection after every point -/

/-- At a point of the first-point case the scratch ends at the projection of that point's feature and weight blocks. -/
theorem scratch_first_at (c : Dev nD) (t : Fin cfg0.N) (h0 : t.val % 25 = 0) :
    (outsAt0 m c t.val t.isLt).2 = k0_pay1 (F := Ideal) (iblk m c 0 t) (iblk m c 2 t) := by
  rw [outsAt0_A m c t h0]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)

theorem scratch_eq (c : Dev nD) : ∀ (n : ℕ) (hn : n < cfg0.N),
    (outsAt0 m c n hn).2 = k0_pay1 (F := Ideal) (iblk m c 0 t0) (iblk m c 2 t0)
  | 0, hn => scratch_first_at m c t0 rfl
  | n + 1, hn => by
    have hB : ¬(⟨n + 1, hn⟩ : Fin cfg0.N).val % 25 = 0 := by have := hN; dsimp only; omega
    rw [outsAt0_B m c ⟨n + 1, hn⟩ hB]
    show (outsAt0 m c n _).2 = _
    exact scratch_eq c n _

/-! ## What a point writes back, as the body's arithmetic on its blocks -/

theorem flushed_pay (c : Dev nD) (t : Fin cfg0.N) :
    (dats m 0 c).flushed 4 t = (cfg0.win 4).cut (grid0.coords t)
      (k0_pay2 (F := Ideal) (iblk m c 1 t) (k0_pay1 (F := Ideal) (iblk m c 0 t0) (iblk m c 2 t0)) (iblk m c 3 t)) := by
  by_cases h0 : t.val % 25 = 0
  · have ht : t = t0 := Fin.ext (by have := t.isLt; have := hN; show t.val = 0; omega)
    subst ht
    rw [Value.flushed4_A m c t0 h0,
      Pieces.out_first (F := Ideal) c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr h0) (iblk m c 0 t0) (iblk m c 1 t0) (iblk m c 2 t0) (iblk m c 3 t0)]
  · rw [Value.flushed4_B m c t h0,
      Pieces.out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2,
      scratch_eq]

/-! ## The bias row as the region finds it -/

/-- The one host operation before the region sets the bias vector up as a [1, 16] row. -/
theorem V_bias (c : Dev nD) :
    (V m c main_v0 : S1x16.Idx → EReal) = shapeCast S1x16 (m ((c : Thread nD τ).loc main_arg3)) shapeCasts_S16_S1x16 := by
  dsimp only [Gen.V, Gen.hostOps0]; after_results; rfl

/-! ## One entry of a written-back block is one entry of the layer's result -/

/-- For a block of 400 rows starting at row 400·T: if the adjacency block holds those rows of the adjacency matrix, the
    scratch holds the projection and the bias row holds the bias, the body's stored value at (p, q) is the layer's result
    at (400·T + p, q). -/
theorem block_value (T : ℕ) (x1 : Vec Ideal S400x10000 .f32) (xs : Vec Ideal S10000x16 .f32) (x3 : Vec Ideal S1x16 .f32)
    (X : S10000x128.Idx → EReal) (A : S10000x10000.Idx → EReal) (W : S128x16.Idx → EReal) (B : S16.Idx → EReal)
    (y : S400x16.Idx) (i : S10000x16.Idx)
    (hrow : (i 0).val = T * 400 + (y 0).val) (hcol : (i 1).val = (y 1).val)
    (hx1 : ∀ (p : Fin 400) (k : Fin 10000) (r : Fin 10000), r.val = T * 400 + p.val → x1 (ix2 p k) = A (ix2 r k))
    (hxs : ∀ (k : Fin 10000) (j : Fin 16), xs (ix2 k j) = Cert.Gcn.proj X W k j)
    (hx3 : ∀ q : Fin 16, x3 (ix2 (0 : Fin 1) q) = B (ix1 q)) :
    k0_pay2 (F := Ideal) x1 xs x3 y = Cert.Gcn.outAddBack X A W B i := by
  obtain ⟨p, q, rfl⟩ : ∃ (p : Fin 400) (q : Fin 16), y = ix2 p q := ⟨y 0, y 1, eq_ix2 y⟩
  rw [Payload.pay2_apply]
  unfold Cert.Gcn.outAddBack
  have hq : i 1 = q := Fin.ext hcol
  rw [hq]
  refine congrArg (fun h => Cert.Gcn.lsmAddBack h q) (funext fun q' => ?_)
  unfold Cert.Gcn.act
  rw [hx3 q']
  refine congrArg (fun s => max (s + B (ix1 q')) (Ideal.ofBits .f32 0x00000000#32)) ?_
  refine Finset.sum_congr rfl fun k _ => ?_
  rw [hx1 p k (i 0) hrow, hxs]

/-- What point t writes back is block t of the layer's result, as a function of the arrays the region finds. -/
theorem flushed_eq (c : Dev nD) (t : Fin cfg0.N) :
    (dats m 0 c).flushed 4 t = ((cfg0.win 4).blk t).view.read (Elt Ideal)
      (Cert.Gcn.outAddBack (V m c main_arg0) (V m c main_arg1) (V m c main_arg2) (m ((c : Thread nD τ).loc main_arg3))) := by
  rw [flushed_pay]
  obtain ⟨e00, e01, e10, e11, e20, e21, e30, e31, e40, e41⟩ := idx_facts t
  obtain ⟨z00, z01, z10, z11, z20, z21, z30, z31, z40, z41⟩ := idx_facts t0
  funext j
  show k0_pay2 (F := Ideal) (iblk m c 1 t) (k0_pay1 (F := Ideal) (iblk m c 0 t0) (iblk m c 2 t0)) (iblk m c 3 t) j
    = Cert.Gcn.outAddBack (V m c main_arg0) (V m c main_arg1) (V m c main_arg2) (m ((c : Thread nD τ).loc main_arg3)) (((cfg0.win 4).blk t).view.emb j)
  refine block_value t.val (iblk m c 1 t) (k0_pay1 (F := Ideal) (iblk m c 0 t0) (iblk m c 2 t0)) (iblk m c 3 t)
    (V m c main_arg0) (V m c main_arg1) (V m c main_arg2) (m ((c : Thread nD τ).loc main_arg3)) j (((cfg0.win 4).blk t).view.emb j) ?_ ?_ ?_ ?_ ?_
  · show win0_4.index t (0 : Fin 2) * 400 + 1 * (j 0).val = t.val * 400 + (j 0).val
    rw [e40]; omega
  · show win0_4.index t (1 : Fin 2) * 16 + 1 * (j 1).val = (j 1).val
    rw [e41]; omega
  · intro p k r hr
    show V m c main_arg1 (((cfg0.win 1).blk t).view.emb (ix2 p k)) = V m c main_arg1 (ix2 r k)
    refine congrArg (V m c main_arg1) (funext fun a => Fin.ext ?_)
    match a with
    | ⟨0, _⟩ => show win0_1.index t (0 : Fin 2) * 400 + 1 * p.val = r.val; rw [e10]; omega
    | ⟨1, _⟩ => show win0_1.index t (1 : Fin 2) * 10000 + 1 * k.val = k.val; rw [e11]; omega
  · intro k j'
    rw [Payload.pay1_apply]
    unfold Cert.Gcn.proj
    refine Finset.sum_congr rfl fun f _ => ?_
    have a0 : iblk m c 0 t0 (ix2 k f) = V m c main_arg0 (ix2 k f) := by
      show V m c main_arg0 (((cfg0.win 0).blk t0).view.emb (ix2 k f)) = V m c main_arg0 (ix2 k f)
      refine congrArg (V m c main_arg0) (funext fun a => Fin.ext ?_)
      match a with
      | ⟨0, _⟩ => show win0_0.index t0 (0 : Fin 2) * 10000 + 1 * k.val = k.val; rw [z00]; omega
      | ⟨1, _⟩ => show win0_0.index t0 (1 : Fin 2) * 128 + 1 * f.val = f.val; rw [z01]; omega
    have a2 : iblk m c 2 t0 (ix2 f j') = V m c main_arg2 (ix2 f j') := by
      show V m c main_arg2 (((cfg0.win 2).blk t0).view.emb (ix2 f j')) = V m c main_arg2 (ix2 f j')
      refine congrArg (V m c main_arg2) (funext fun a => Fin.ext ?_)
      match a with
      | ⟨0, _⟩ => show win0_2.index t0 (0 : Fin 2) * 128 + 1 * f.val = f.val; rw [z20]; omega
      | ⟨1, _⟩ => show win0_2.index t0 (1 : Fin 2) * 16 + 1 * j'.val = j'.val; rw [z21]; omega
    rw [a0, a2]
  · intro q
    show V m c main_v0 (((cfg0.win 3).blk t).view.emb (ix2 (0 : Fin 1) q)) = _
    rw [V_bias]
    refine shapeCast_apply _ _ _ _ ?_
    show (S16.rowMajor (ix1 q)).val = (S1x16.rowMajor (((cfg0.win 3).blk t).view.emb (ix2 (0 : Fin 1) q))).val
    rw [Shape.rowMajor_val_one, Shape.rowMajor_val_two]
    show q.val = (win0_3.index t (0 : Fin 2) * 1 + 1 * 0) * 16 + (win0_3.index t (1 : Fin 2) * 16 + 1 * q.val)
    rw [e30, e31]; omega

/-! ## The blocks cover the array -/

/-- An index of the result array is in point t's block iff each coordinate is in the block's range on its axis. -/
theorem mem_blk (t : Fin cfg0.N) (i : S10000x16.Idx) :
    i ∈ ((cfg0.win 4).blk t).view.set ↔ ∀ a : Fin 2, win0_4.index t a * S400x16.size a ≤ (i a).val ∧ (i a).val < win0_4.index t a * S400x16.size a + S400x16.size a := by
  show i ∈ ((View.whole main_v1).slice (win0_4.rect t)).set ↔ _
  rw [View.set_slice_whole, Rect.mem_set_unit]
  exact Iff.rfl

/-- Row r lies in the block of point r / 400. -/
theorem cover (i : S10000x16.Idx) : ∃ t : Fin cfg0.N, (cfg0.win 4).flush t = true ∧ i ∈ ((cfg0.win 4).blk t).view.set := by
  have hi0 : (i 0).val < 10000 := (i 0).isLt
  have hi1 : (i 1).val < 16 := (i 1).isLt
  have hlt : (i 0).val / 400 < cfg0.N := by rw [hN]; omega
  obtain ⟨-, -, -, -, -, -, -, -, e40, e41⟩ := idx_facts ⟨(i 0).val / 400, hlt⟩
  refine ⟨⟨(i 0).val / 400, hlt⟩, flush0_4 _, ?_⟩
  rw [mem_blk]
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, hlt⟩ (1 : Fin 2) * 16 ≤ (i 1).val ∧ (i 1).val < win0_4.index ⟨(i 0).val / 400, hlt⟩ (1 : Fin 2) * 16 + 16
    rw [e41]; omega

/-! ## The result array, and the run -/

/-- After the run the result array is the layer's result of the argument arrays. -/
theorem final4 (c : Dev nD) :
    (dats m 0 c).arrAt 4 cfg0.N = Cert.Gcn.outAddBack (m ((c : Thread nD τ).loc main_arg0)) (m ((c : Thread nD τ).loc main_arg1)) (m ((c : Thread nD τ).loc main_arg2)) (m ((c : Thread nD τ).loc main_arg3)) := by
  rw [(dats m 0 c).arrAt_eq_of_cover 4
    (Cert.Gcn.outAddBack (V m c main_arg0) (V m c main_arg1) (V m c main_arg2) (m ((c : Thread nD τ).loc main_arg3)))
    (fun t _ => flushed_eq m c t) cover, V_main_arg0, V_main_arg1, V_main_arg2]

/-- Every weakly fair execution of the kernel program terminates with the result array at the layer's result of the
    argument arrays, the arguments unchanged. -/
theorem run : θ_run defs (onTc (τ := τ) (main (F := Ideal))) ⟨m, fun _ => 0, ρ⟩ fun r => ∀ c : Dev nD,
      r.2.mem ((c : Thread nD τ).loc main_v1) = Cert.Gcn.outAddBack (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (Value.run_blocks m ρ)

end Cert.KernelIdeal.Blocks

end
-- ==== Proof.FiniteInputs.lean ====
/-
  Finiteness of the float inputs, read back from the precondition.

  The precondition is the conjunction, over the four float inputs, of "every entry has absolute value strictly
  below +∞". At the instance where a float is an extended real, an entry whose absolute value is strictly below
  the top element is neither the bottom nor the top element, hence is (the image of) a real number.
-/
import proofs.«129348_g41807211659408_cont_sun_c4_862_25_alg».proof.Pre_finite_inputs
import Idealize.ShloMosaic.Lib.ReduceAll
import Idealize.ShloMosaic.Lib.ValueIdx
import Idealize.ShloMosaic.PureOps.Ideal
import Idealize.ShloMosaic.PureOps.Ideal.Laws

namespace Cert.FiniteInputs

open Idealize.ShloMosaic

/-- The rank-0 shape has a single index: two indices are functions out of the empty type. -/
instance subsingleton_scalar_idx : Subsingleton Cert.Pre_finite_inputs.S_.Idx :=
  ⟨fun a b => funext fun d => d.elim0⟩

/-- The single-precision pattern with all exponent bits set, sign and fraction clear, denotes +∞. -/
theorem ofBits_pos_inf : Ideal.ofBits .f32 0x7F800000#32 = (⊤ : EReal) := by
  simp [Ideal.ofBits, Ideal.ieee]

/-- The ordered "less than" comparison of two extended reals returns the word 1 exactly when the strict order holds. -/
theorem cmp_olt_eq_one (a b : EReal) : Ideal.cmp .olt a b = 1#1 ↔ a < b := by
  by_cases hab : a < b
  · simp [Ideal.cmp, hab]
  · simp [Ideal.cmp, hab]

/-- An extended real whose absolute value `max a (-a)` is strictly below +∞ is a real number:
    at −∞ the absolute value is `max ⊥ ⊤ = ⊤`, at +∞ it is `max ⊤ ⊥ = ⊤`, and `⊤ < ⊤` is false. -/
theorem exists_real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- The generic step, over an arbitrary array shape `s`: if the conjunction over ALL entries of
    "|x i| < +∞" (the comparison of the entrywise absolute value with the broadcast +∞ constant, folded by
    `and` into a result of a single index) is true, then every entry of `x` is a real number. -/
theorem real_of_all_abs_lt_inf {s s0 t u : Shape} {axes : List (Fin s.rank)} [Subsingleton t.Idx]
    (x : FVec Ideal s .f32) (dims : Fin s0.rank → Fin s.rank) (hb : s0.BroadcastsInDim s dims)
    (init : IVec u 1) (hr : s.ReducesTo axes t) (hu : 0 < u.numel) (j : t.Idx)
    (e : Host.reduce IntOp.andi
          (cmpf .olt (Host.absf x) (broadcastInDim s dims hb (constant (F := Ideal) s0 .f32 0x7F800000#32)))
          init hr hu j = 1#1) :
    ∀ i, ∃ r : ℝ, x i = (r : EReal) := by
  intro i
  -- the fold by `and` is true, so the comparison is true at the entry `i`
  have hi := Host.reduce_andi_all _ init hr hu j e i
  -- at an entry the comparison is the strict order of extended reals, between `max (x i) (-(x i))` and the constant
  have hc : Ideal.cmp .olt (max (x i) (-(x i))) (Ideal.ofBits .f32 0x7F800000#32) = 1#1 := hi
  rw [ofBits_pos_inf] at hc
  exact exists_real_of_abs_lt_top (x i) ((cmp_olt_eq_one _ _).1 hc)

/-- The precondition holds (its one result word is 1) only if every entry of each of the four float inputs is a real. -/
theorem real_of_pre [Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x16 .f32) (x3 : FVec Ideal Cert.Pre_finite_inputs.S16 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  -- the result has one index; read the hypothesis there
  have h0 := congrFun h ValueIdx.ix0
  dsimp only [Cert.Pre_finite_inputs.fn, Cert.Pre_finite_inputs.fn_part1] at h0
  -- the result is ((all₀ ∧ all₁) ∧ all₂) ∧ all₃
  obtain ⟨h012, h3⟩ := IntOp.andi_eq_one.1 h0
  obtain ⟨h01, h2⟩ := IntOp.andi_eq_one.1 h012
  obtain ⟨h0', h1⟩ := IntOp.andi_eq_one.1 h01
  exact ⟨real_of_all_abs_lt_inf x0 _ _ _ _ _ _ h0', real_of_all_abs_lt_inf x1 _ _ _ _ _ _ h1,
    real_of_all_abs_lt_inf x2 _ _ _ _ _ _ h2, real_of_all_abs_lt_inf x3 _ _ _ _ _ _ h3⟩

end Cert.FiniteInputs
-- ==== Proof.lean ====
/-
  One graph-convolution layer with a row-wise log-softmax, as a blocked kernel and as a plain array program:
  out = log_softmax (relu (adj · (x · W) + b)) over x [10000, 128], adj [10000, 10000], W [128, 16], b [16].

  The kernel walks the 10000 rows of adj in 25 blocks of 400. At the first block it computes the projection x · W into a
  scratch it keeps for all later blocks; at every block it multiplies the adjacency block by that projection, adds the
  bias, clamps at zero, and subtracts from each entry the row's maximum plus the logarithm of the row's sum of
  exponentials taken after that maximum is subtracted. The reference subtracts the row's maximum from each entry
  first and the logarithm second. Over the extended reals
      h − (t + L) = (h − t) − L
  holds whenever h and t are real numbers, for any L. Under the precondition every input entry is real, so every
  activation h — a maximum with zero of a finite sum of products of reals plus a real — is real, and so is t, the maximum
  of a row of sixteen of them. That is the one place where the finiteness of the inputs is used.

  The three frame claims are the generated frames (the reference's is its run with the result dropped); the kernel's
  idealization rewrote nothing, so there is nothing to preserve; the algebraic claim sets the kernel's run (the result
  array as one function of the argument arrays, block by block) beside the reference's run read index by index.
-/
import proofs.«129348_g41807211659408_cont_sun_c4_862_25_alg».proof.Defs
import proofs.«129348_g41807211659408_cont_sun_c4_862_25_alg».proof.Proof.Gen.Kernel
import proofs.«129348_g41807211659408_cont_sun_c4_862_25_alg».proof.Proof.Gen.Kernel.Frame
import proofs.«129348_g41807211659408_cont_sun_c4_862_25_alg».proof.Proof.Gen.KernelIdeal
import proofs.«129348_g41807211659408_cont_sun_c4_862_25_alg».proof.Proof.Gen.KernelIdeal.Frame
import proofs.«129348_g41807211659408_cont_sun_c4_862_25_alg».proof.Proof.Gen.KernelIdeal.Value
import proofs.«129348_g41807211659408_cont_sun_c4_862_25_alg».proof.Proof.Gen.ReferenceIdeal
import proofs.«129348_g41807211659408_cont_sun_c4_862_25_alg».proof.Proof.Gen.Pre_finite_inputs
import proofs.«129348_g41807211659408_cont_sun_c4_862_25_alg».proof.Proof.RefRun
import proofs.«129348_g41807211659408_cont_sun_c4_862_25_alg».proof.Proof.RefRead
import proofs.«129348_g41807211659408_cont_sun_c4_862_25_alg».proof.Proof.RefIsSpec
import proofs.«129348_g41807211659408_cont_sun_c4_862_25_alg».proof.Proof.KernelBlocks
import proofs.«129348_g41807211659408_cont_sun_c4_862_25_alg».proof.Proof.FiniteInputs
import proofs.«129348_g41807211659408_cont_sun_c4_862_25_alg».proof.Proof.GcnSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, both programs end with the layer's result: the kernel in the form with the
    maximum added back to the logarithm, the reference in the form with the shifted entry; on real inputs the two forms
    are one array. -/
theorem algebraic : Cert.algebraic_KernelIdeal_ReferenceIdeal := by
  intro m ρ m' ρ' hpre hagree
  refine ⟨fun c => Cert.Gcn.outAddBack (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.ReadP.val_main_v6_eq, Cert.ReferenceIdeal.RefSpec.ref_is_shifted, (hagree c).1, (hagree c).2.1, (hagree c).2.2.1, (hagree c).2.2.2]
  obtain ⟨h0, h1, h2, h3⟩ := Cert.FiniteInputs.real_of_pre _ _ _ _ (hpre c)
  exact (Cert.Gcn.out_forms_agree h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
